-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x1152 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1025 : Shape := ⟨2, ![16384, 1025]⟩
abbrev S1025x1025 : Shape := ⟨2, ![1025, 1025]⟩
abbrev S1x1025 : Shape := ⟨2, ![1, 1025]⟩
abbrev S_ : Shape := ⟨0, ![]⟩

class Facts : Prop where
  bcast_S_S16384x1025 : S_.BroadcastsInDim S16384x1025 (![] : Fin 0 → Fin S16384x1025.rank)
  reducesTo_S16384x1025_S_d0_1 : S16384x1025.ReducesTo [0, 1] S_
  h_S_ : 0 < S_.numel
  bcast_S_S1025x1025 : S_.BroadcastsInDim S1025x1025 (![] : Fin 0 → Fin S1025x1025.rank)
  reducesTo_S1025x1025_S_d0_1 : S1025x1025.ReducesTo [0, 1] S_
  bcast_S_S1x1025 : S_.BroadcastsInDim S1x1025 (![] : Fin 0 → Fin S1x1025.rank)
  reducesTo_S1x1025_S_d0_1 : S1x1025.ReducesTo [0, 1] S_

variable [Facts]

def fn_part1 {F : FTy → Type} [FloatOps F] (main_v13 : IVec S_ 1) (main_v16 : IVec S1x1025 1) : IVec S_ 1 :=
  let main_c_5 : IVec S_ 1 := constantI S_ 1 1#1
  let main_v17 : IVec S_ 1 := (fun x v => Host.reduce IntOp.andi x v reducesTo_S1x1025_S_d0_1 h_S_) main_v16 main_c_5
  let main_v18 : IVec S_ 1 := andi main_v13 main_v17
  main_v18

def fn {F : FTy → Type} [FloatOps F] (main_arg0 : FVec F S16384x1025 .f32) (main_arg1 : FVec F S1025x1025 .f32) (main_arg2 : FVec F S1025x1025 .f32) (main_arg3 : FVec F S1x1025 .f32) : IVec S_ 1 :=
  let main_v0 : FVec F S16384x1025 .f32 := Host.absf main_arg0
  let main_cst : FVec F S_ .f32 := constant S_ .f32 0x7F800000#32
  let main_v1 : FVec F S16384x1025 .f32 := broadcastInDim S16384x1025 ![] bcast_S_S16384x1025 main_cst
  let main_v2 : IVec S16384x1025 1 := cmpf .olt main_v0 main_v1
  let main_c : IVec S_ 1 := constantI S_ 1 1#1
  let main_v3 : IVec S_ 1 := (fun x v => Host.reduce IntOp.andi x v reducesTo_S16384x1025_S_d0_1 h_S_) main_v2 main_c
  let main_v4 : FVec F S1025x1025 .f32 := Host.absf main_arg1
  let main_cst_0 : FVec F S_ .f32 := constant S_ .f32 0x7F800000#32
  let main_v5 : FVec F S1025x1025 .f32 := broadcastInDim S1025x1025 ![] bcast_S_S1025x1025 main_cst_0
  let main_v6 : IVec S1025x1025 1 := cmpf .olt main_v4 main_v5
  let main_c_1 : IVec S_ 1 := constantI S_ 1 1#1
  let main_v7 : IVec S_ 1 := (fun x v => Host.reduce IntOp.andi x v reducesTo_S1025x1025_S_d0_1 h_S_) main_v6 main_c_1
  let main_v8 : IVec S_ 1 := andi main_v3 main_v7
  let main_v9 : FVec F S1025x1025 .f32 := Host.absf main_arg2
  let main_cst_2 : FVec F S_ .f32 := constant S_ .f32 0x7F800000#32
  let main_v10 : FVec F S1025x1025 .f32 := broadcastInDim S1025x1025 ![] bcast_S_S1025x1025 main_cst_2
  let main_v11 : IVec S1025x1025 1 := cmpf .olt main_v9 main_v10
  let main_c_3 : IVec S_ 1 := constantI S_ 1 1#1
  let main_v12 : IVec S_ 1 := (fun x v => Host.reduce IntOp.andi x v reducesTo_S1025x1025_S_d0_1 h_S_) main_v11 main_c_3
  let main_v13 : IVec S_ 1 := andi main_v8 main_v12
  let main_v14 : FVec F S1x1025 .f32 := Host.absf main_arg3
  let main_cst_4 : FVec F S_ .f32 := constant S_ .f32 0x7F800000#32
  let main_v15 : FVec F S1x1025 .f32 := broadcastInDim S1x1025 ![] bcast_S_S1x1025 main_cst_4
  let main_v16 : IVec S1x1025 1 := cmpf .olt main_v14 main_v15
  fn_part1 (F := F) main_v13 main_v16
-- ==== Kernel.lean ====
abbrev S16384x1025 : Shape := ⟨2, ![16384, 1025]⟩
abbrev S1025x1025 : Shape := ⟨2, ![1025, 1025]⟩
abbrev S1x1025 : Shape := ⟨2, ![1, 1025]⟩
abbrev S_ : Shape := ⟨0, ![]⟩
abbrev S1152x1152 : Shape := ⟨2, ![1152, 1152]⟩
abbrev S128x1152 : Shape := ⟨2, ![128, 1152]⟩
abbrev S1152x128 : Shape := ⟨2, ![1152, 128]⟩
abbrev S16384x128 : Shape := ⟨2, ![16384, 128]⟩
abbrev S1024x1025 : Shape := ⟨2, ![1024, 1025]⟩
abbrev S1024x128 : Shape := ⟨2, ![1024, 128]⟩
abbrev S1024x127 : Shape := ⟨2, ![1024, 127]⟩
abbrev S1024x1152 : Shape := ⟨2, ![1024, 1152]⟩
abbrev S16384x1 : Shape := ⟨2, ![16384, 1]⟩
abbrev S16384 : Shape := ⟨1, ![16384]⟩

abbrev nBuf : Space → Nat
  | .hbm => 50
  | .vmem => 7
  | .smem => 0
  | _ => 0

abbrev bufTy : (tb : Table) → Fin (tcTables nBuf tb) → BufTy
  | .hbm, ⟨0, _⟩ => ⟨S16384x1025, .f32⟩
  | .hbm, ⟨1, _⟩ => ⟨S1025x1025, .f32⟩
  | .hbm, ⟨2, _⟩ => ⟨S1025x1025, .f32⟩
  | .hbm, ⟨3, _⟩ => ⟨S1x1025, .f32⟩
  | .hbm, ⟨4, _⟩ => ⟨S_, .f32⟩
  | .hbm, ⟨5, _⟩ => ⟨S1025x1025, .f32⟩
  | .hbm, ⟨6, _⟩ => ⟨S1025x1025, .i1⟩
  | .hbm, ⟨7, _⟩ => ⟨S_, .f32⟩
  | .hbm, ⟨8, _⟩ => ⟨S_, .f32⟩
  | .hbm, ⟨9, _⟩ => ⟨S1025x1025, .f32⟩
  | .hbm, ⟨10, _⟩ => ⟨S1025x1025, .f32⟩
  | .hbm, ⟨11, _⟩ => ⟨S1025x1025, .f32⟩
  | .hbm, ⟨12, _⟩ => ⟨S1025x1025, .f32⟩
  | .hbm, ⟨13, _⟩ => ⟨S_, .i32⟩
  | .hbm, ⟨14, _⟩ => ⟨S_, .f32⟩
  | .hbm, ⟨15, _⟩ => ⟨S1152x1152, .f32⟩
  | .hbm, ⟨16, _⟩ => ⟨S1152x1152, .f32⟩
  | .hbm, ⟨17, _⟩ => ⟨S1152x1152, .bf16⟩
  | .hbm, ⟨18, _⟩ => ⟨S_, .f32⟩
  | .hbm, ⟨19, _⟩ => ⟨S1025x1025, .f32⟩
  | .hbm, ⟨20, _⟩ => ⟨S1025x1025, .i1⟩
  | .hbm, ⟨21, _⟩ => ⟨S_, .f32⟩
  | .hbm, ⟨22, _⟩ => ⟨S_, .f32⟩
  | .hbm, ⟨23, _⟩ => ⟨S1025x1025, .f32⟩
  | .hbm, ⟨24, _⟩ => ⟨S1025x1025, .f32⟩
  | .hbm, ⟨25, _⟩ => ⟨S1025x1025, .f32⟩
  | .hbm, ⟨26, _⟩ => ⟨S1025x1025, .f32⟩
  | .hbm, ⟨27, _⟩ => ⟨S_, .i32⟩
  | .hbm, ⟨28, _⟩ => ⟨S_, .f32⟩
  | .hbm, ⟨29, _⟩ => ⟨S1152x1152, .f32⟩
  | .hbm, ⟨30, _⟩ => ⟨S1152x1152, .f32⟩
  | .hbm, ⟨31, _⟩ => ⟨S1152x1152, .bf16⟩
  | .hbm, ⟨32, _⟩ => ⟨S_, .f32⟩
  | .hbm, ⟨33, _⟩ => ⟨S1x1025, .f32⟩
  | .hbm, ⟨34, _⟩ => ⟨S1x1025, .i1⟩
  | .hbm, ⟨35, _⟩ => ⟨S_, .f32⟩
  | .hbm, ⟨36, _⟩ => ⟨S_, .f32⟩
  | .hbm, ⟨37, _⟩ => ⟨S1x1025, .f32⟩
  | .hbm, ⟨38, _⟩ => ⟨S1x1025, .f32⟩
  | .hbm, ⟨39, _⟩ => ⟨S1x1025, .f32⟩
  | .hbm, ⟨40, _⟩ => ⟨S1x1025, .f32⟩
  | .hbm, ⟨41, _⟩ => ⟨S_, .i32⟩
  | .hbm, ⟨42, _⟩ => ⟨S_, .f32⟩
  | .hbm, ⟨43, _⟩ => ⟨S128x1152, .f32⟩
  | .hbm, ⟨44, _⟩ => ⟨S1152x128, .f32⟩
  | .hbm, ⟨45, _⟩ => ⟨S1152x128, .bf16⟩
  | .hbm, ⟨46, _⟩ => ⟨S16384x128, .bf16⟩
  | .hbm, ⟨47, _⟩ => ⟨S16384x1, .bf16⟩
  | .hbm, ⟨48, _⟩ => ⟨S16384, .bf16⟩
  | .hbm, ⟨49, _⟩ => ⟨S16384, .f32⟩
  | .local _ .vmem, ⟨0, _⟩ => ⟨S1024x1025, .f32⟩
  | .local _ .vmem, ⟨1, _⟩ => ⟨S1024x1025, .f32⟩
  | .local _ .vmem, ⟨2, _⟩ => ⟨S1152x1152, .bf16⟩
  | .local _ .vmem, ⟨3, _⟩ => ⟨S1152x1152, .bf16⟩
  | .local _ .vmem, ⟨4, _⟩ => ⟨S1152x128, .bf16⟩
  | .local _ .vmem, ⟨5, _⟩ => ⟨S1024x128, .bf16⟩
  | .local _ .vmem, ⟨6, _⟩ => ⟨S1024x128, .bf16⟩
  | _, _ => ⟨S16384x1025, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_v9 : Ref sig .tc := ⟨.hbm, 25, rfl⟩
abbrev main_v10 : Ref sig .tc := ⟨.hbm, 26, rfl⟩
abbrev main_c_5 : Ref sig .tc := ⟨.hbm, 27, rfl⟩
abbrev main_call3_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_cst_8 : Ref sig .tc := ⟨.hbm, 36, rfl⟩
abbrev main_call4_v0 : Ref sig .tc := ⟨.hbm, 37, rfl⟩
abbrev main_call4_v1 : Ref sig .tc := ⟨.hbm, 38, rfl⟩
abbrev main_v16 : Ref sig .tc := ⟨.hbm, 39, rfl⟩
abbrev main_v17 : Ref sig .tc := ⟨.hbm, 40, rfl⟩
abbrev main_c_9 : Ref sig .tc := ⟨.hbm, 41, rfl⟩
abbrev main_call5_v0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1025 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1025x1025 : S_.BroadcastsInDim S1025x1025 (![] : Fin 0 → Fin S1025x1025.rank)
  pads_S1025x1025_S1152x1152_01270_01270 : S1025x1025.Pads (![0, 0] : Fin 2 → Nat) ![127, 127] ![0, 0] S1152x1152
  h_S_ : 0 < S_.numel
  transposes_S1152x1152_S1152x1152_1_0 : S1152x1152.Transposes [1, 0] S1152x1152
  bitsLt_bf16_f32 : FTy.bits .bf16 < FTy.bits .f32
  bcast_S_S1x1025 : S_.BroadcastsInDim S1x1025 (![] : Fin 0 → Fin S1x1025.rank)
  pads_S1x1025_S128x1152_01270_01270 : S1x1025.Pads (![0, 0] : Fin 2 → Nat) ![127, 127] ![0, 0] S128x1152
  transposes_S128x1152_S1152x128_1_0 : S128x1152.Transposes [1, 0] S1152x128
  inb_S1024x1025_S1024x1025_0_0 : ∀ a, (![0, 0] : Fin 2 → Nat) a + S1024x1025.size a ≤ S1024x1025.size a
  h_S1024x1025 : 0 < S1024x1025.numel
  concatenates_S1024x1025_S1024x127_S1024x1152_d1 : Shape.Concatenates [S1024x1025, S1024x127] S1024x1152 1
  inb_S1152x1152_S1152x1152_0_0 : ∀ a, (![0, 0] : Fin 2 → Nat) a + S1152x1152.size a ≤ S1152x1152.size a
  h_S1152x1152 : 0 < S1152x1152.numel
  shapeCasts_S1152x1152_S1152x1152 : S1152x1152.ShapeCasts S1152x1152
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  slices_S16384x128_S16384x1_0_0 : S16384x128.Slices ![0, 0] S16384x1
  shapeCasts_S16384x1_S16384 : S16384x1.ShapeCasts S16384
  dot_S1024x1152_S1152x1152_S1024x1152_1_0_0_1_n_n_wf : DotDims.WF S1024x1152 S1152x1152 S1024x1152 [1] [0] [0] [1] [] []
  dot_S1024x1152_S1152x128_S1024x128_1_0_0_1_n_n_wf : DotDims.WF S1024x1152 S1152x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1025.size a ≤ S16384x1025.size a
  hwx0_0 : ∀ i : grid0.Coords, EltTy.bits .f32 = 32 ∨ (Rect.block (s := S16384x1025) S1024x1025.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x1152.size a ≤ S1152x1152.size a
  hwx0_1 : ∀ i : grid0.Coords, EltTy.bits .bf16 = 32 ∨ (Rect.block (s := S1152x1152) S1152x1152.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1152x1152.size a ≤ S1152x1152.size a
  hwx0_2 : ∀ i : grid0.Coords, EltTy.bits .bf16 = 32 ∨ (Rect.block (s := S1152x1152) S1152x1152.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1152x128.size a ≤ S1152x128.size a
  hwx0_3 : ∀ i : grid0.Coords, EltTy.bits .bf16 = 32 ∨ (Rect.block (s := S1152x128) S1152x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .bf16 = 32 ∨ (Rect.block (s := S16384x128) S1024x128.size (cc0_transform_4 i) (hinb0_4 i)).WholeWords (EltTy.packing .bf16)

variable [Facts₀]

def dot_S1024x1152_S1152x1152_S1024x1152_1_0_0_1_n_n : DotDims S1024x1152 S1152x1152 S1024x1152 where
  lhsContracting := [1]
  rhsContracting := [0]
  lhsNonContracting := [0]
  rhsNonContracting := [1]
  lhsBatch := []
  rhsBatch := []
  wf := dot_S1024x1152_S1152x1152_S1024x1152_1_0_0_1_n_n_wf
def dot_S1024x1152_S1152x128_S1024x128_1_0_0_1_n_n : DotDims S1024x1152 S1152x128 S1024x128 where
  lhsContracting := [1]
  rhsContracting := [0]
  lhsNonContracting := [0]
  rhsNonContracting := [1]
  lhsBatch := []
  rhsBatch := []
  wf := dot_S1024x1152_S1152x128_S1024x128_1_0_0_1_n_n_wf

abbrev win0_0 : Pipeline.Window sig grid0 :=
  Pipeline.Window.ofSpec (Memref.whole main_arg0) S1024x1025.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1152x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1152x1152.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1152x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1025 : Shape := ⟨2, ![16384, 1025]⟩
abbrev S1025x1025 : Shape := ⟨2, ![1025, 1025]⟩
abbrev S1x1025 : Shape := ⟨2, ![1, 1025]⟩
abbrev S_ : Shape := ⟨0, ![]⟩
abbrev S1025x1 : Shape := ⟨2, ![1025, 1]⟩
abbrev S16384x1 : Shape := ⟨2, ![16384, 1]⟩
abbrev S16384 : Shape := ⟨1, ![16384]⟩

abbrev nBuf : Space → Nat
  | .hbm => 71
  | .vmem => 0
  | .smem => 0
  | _ => 0

abbrev bufTy : (tb : Table) → Fin (tcTables nBuf tb) → BufTy
  | .hbm, ⟨0, _⟩ => ⟨S16384x1025, .f32⟩
  | .hbm, ⟨1, _⟩ => ⟨S1025x1025, .f32⟩
  | .hbm, ⟨2, _⟩ => ⟨S1025x1025, .f32⟩
  | .hbm, ⟨3, _⟩ => ⟨S1x1025, .f32⟩
  | .hbm, ⟨4, _⟩ => ⟨S_, .f32⟩
  | .hbm, ⟨5, _⟩ => ⟨S1025x1025, .f32⟩
  | .hbm, ⟨6, _⟩ => ⟨S1025x1025, .i1⟩
  | .hbm, ⟨7, _⟩ => ⟨S_, .f32⟩
  | .hbm, ⟨8, _⟩ => ⟨S1025x1025, .f32⟩
  | .hbm, ⟨9, _⟩ => ⟨S_, .f32⟩
  | .hbm, ⟨10, _⟩ => ⟨S1025x1025, .f32⟩
  | .hbm, ⟨11, _⟩ => ⟨S1025x1025, .f32⟩
  | .hbm, ⟨12, _⟩ => ⟨S1025x1025, .f32⟩
  | .hbm, ⟨13, _⟩ => ⟨S1025x1025, .f32⟩
  | .hbm, ⟨14, _⟩ => ⟨S16384x1025, .f32⟩
  | .hbm, ⟨15, _⟩ => ⟨S_, .f32⟩
  | .hbm, ⟨16, _⟩ => ⟨S16384x1025, .f32⟩
  | .hbm, ⟨17, _⟩ => ⟨S16384x1025, .i1⟩
  | .hbm, ⟨18, _⟩ => ⟨S_, .f32⟩
  | .hbm, ⟨19, _⟩ => ⟨S16384x1025, .f32⟩
  | .hbm, ⟨20, _⟩ => ⟨S_, .f32⟩
  | .hbm, ⟨21, _⟩ => ⟨S16384x1025, .f32⟩
  | .hbm, ⟨22, _⟩ => ⟨S16384x1025, .f32⟩
  | .hbm, ⟨23, _⟩ => ⟨S16384x1025, .f32⟩
  | .hbm, ⟨24, _⟩ => ⟨S_, .f32⟩
  | .hbm, ⟨25, _⟩ => ⟨S1025x1025, .f32⟩
  | .hbm, ⟨26, _⟩ => ⟨S1025x1025, .i1⟩
  | .hbm, ⟨27, _⟩ => ⟨S_, .f32⟩
  | .hbm, ⟨28, _⟩ => ⟨S1025x1025, .f32⟩
  | .hbm, ⟨29, _⟩ => ⟨S_, .f32⟩
  | .hbm, ⟨30, _⟩ => ⟨S1025x1025, .f32⟩
  | .hbm, ⟨31, _⟩ => ⟨S1025x1025, .f32⟩
  | .hbm, ⟨32, _⟩ => ⟨S1025x1025, .f32⟩
  | .hbm, ⟨33, _⟩ => ⟨S1025x1025, .f32⟩
  | .hbm, ⟨34, _⟩ => ⟨S16384x1025, .f32⟩
  | .hbm, ⟨35, _⟩ => ⟨S_, .f32⟩
  | .hbm, ⟨36, _⟩ => ⟨S16384x1025, .f32⟩
  | .hbm, ⟨37, _⟩ => ⟨S16384x1025, .i1⟩
  | .hbm, ⟨38, _⟩ => ⟨S_, .f32⟩
  | .hbm, ⟨39, _⟩ => ⟨S16384x1025, .f32⟩
  | .hbm, ⟨40, _⟩ => ⟨S_, .f32⟩
  | .hbm, ⟨41, _⟩ => ⟨S16384x1025, .f32⟩
  | .hbm, ⟨42, _⟩ => ⟨S16384x1025, .f32⟩
  | .hbm, ⟨43, _⟩ => ⟨S16384x1025, .f32⟩
  | .hbm, ⟨44, _⟩ => ⟨S_, .f32⟩
  | .hbm, ⟨45, _⟩ => ⟨S1x1025, .f32⟩
  | .hbm, ⟨46, _⟩ => ⟨S1x1025, .i1⟩
  | .hbm, ⟨47, _⟩ => ⟨S_, .f32⟩
  | .hbm, ⟨48, _⟩ => ⟨S1x1025, .f32⟩
  | .hbm, ⟨49, _⟩ => ⟨S_, .f32⟩
  | .hbm, ⟨50, _⟩ => ⟨S1x1025, .f32⟩
  | .hbm, ⟨51, _⟩ => ⟨S1x1025, .f32⟩
  | .hbm, ⟨52, _⟩ => ⟨S1x1025, .f32⟩
  | .hbm, ⟨53, _⟩ => ⟨S1025x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .i1⟩
  | .hbm, ⟨58, _⟩ => ⟨S_, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384, .f32⟩
  | _, _ => ⟨S16384x1025, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_cst_10 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_v29 : Ref sig .tc := ⟨.hbm, 46, rfl⟩
abbrev main_cst_12 : Ref sig .tc := ⟨.hbm, 47, rfl⟩
abbrev main_v30 : Ref sig .tc := ⟨.hbm, 48, rfl⟩
abbrev main_cst_13 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_14 : Ref sig .tc := ⟨.hbm, 55, rfl⟩
abbrev main_v36 : Ref sig .tc := ⟨.hbm, 56, rfl⟩
abbrev main_v37 : Ref sig .tc := ⟨.hbm, 57, rfl⟩
abbrev main_cst_15 : Ref sig .tc := ⟨.hbm, 58, rfl⟩
abbrev main_v38 : Ref sig .tc := ⟨.hbm, 59, rfl⟩
abbrev main_cst_16 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_17 : Ref sig .tc := ⟨.hbm, 64, rfl⟩
abbrev main_v42 : Ref sig .tc := ⟨.hbm, 65, rfl⟩
abbrev main_v43 : Ref sig .tc := ⟨.hbm, 66, rfl⟩
abbrev main_cst_18 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]

class Facts₀ : Prop where
  bcast_S_S1025x1025 : S_.BroadcastsInDim S1025x1025 (![] : Fin 0 → Fin S1025x1025.rank)
  transposes_S1025x1025_S1025x1025_1_0 : S1025x1025.Transposes [1, 0] S1025x1025
  bcast_S_S16384x1025 : S_.BroadcastsInDim S16384x1025 (![] : Fin 0 → Fin S16384x1025.rank)
  bcast_S_S1x1025 : S_.BroadcastsInDim S1x1025 (![] : Fin 0 → Fin S1x1025.rank)
  transposes_S1x1025_S1025x1_1_0 : S1x1025.Transposes [1, 0] S1025x1
  bcast_S_S16384x1 : S_.BroadcastsInDim S16384x1 (![] : Fin 0 → Fin S16384x1.rank)
  shapeCasts_S16384x1_S16384 : S16384x1.ShapeCasts S16384
  dot_S16384x1025_S1025x1025_S16384x1025_1_0_0_1_n_n_wf : DotDims.WF S16384x1025 S1025x1025 S16384x1025 [1] [0] [0] [1] [] []
  dot_S16384x1025_S1025x1_S16384x1_1_0_0_1_n_n_wf : DotDims.WF S16384x1025 S1025x1 S16384x1 [1] [0] [0] [1] [] []

variable [Facts₀]

def dot_S16384x1025_S1025x1025_S16384x1025_1_0_0_1_n_n : DotDims S16384x1025 S1025x1025 S16384x1025 where
  lhsContracting := [1]
  rhsContracting := [0]
  lhsNonContracting := [0]
  rhsNonContracting := [1]
  lhsBatch := []
  rhsBatch := []
  wf := dot_S16384x1025_S1025x1025_S16384x1025_1_0_0_1_n_n_wf
def dot_S16384x1025_S1025x1_S16384x1_1_0_0_1_n_n : DotDims S16384x1025 S1025x1 S16384x1 where
  lhsContracting := [1]
  rhsContracting := [0]
  lhsNonContracting := [0]
  rhsNonContracting := [1]
  lhsBatch := []
  rhsBatch := []
  wf := dot_S16384x1025_S1025x1_S16384x1_1_0_0_1_n_n_wf

class Facts : Prop extends Facts₀ where

variable [Facts]
-- ==== Proof.LibPadSum.lean ====
/-
  Sums over a zero-padded index range.

  A kernel that pads a contracted axis from `n` to `N` lanes with zeros (or meets padded lanes with zero weights) sums
  over `Fin N` terms that vanish from lane `n` on. Such a sum is the sum of its first `n` terms, in any commutative
  additive monoid: on the extended reals too, where no cancellation law is available.
-/
import Mathlib.Algebra.BigOperators.Fin

namespace Cert.LibPadSum

open Finset

/-- A sum over `Fin N` whose terms vanish from `n` on is the sum of its first `n` terms
    (`Fin.castLE hn` embeds the first `n` lanes). -/
theorem sum_castLE {M : Type*} [AddCommMonoid M] {n N : ℕ} (hn : n ≤ N) (f : Fin N → M)
    (hz : ∀ k : Fin N, n ≤ k.val → f k = 0) : ∑ k : Fin N, f k = ∑ k : Fin n, f (Fin.castLE hn k) := by
  have e : ∑ k : Fin n, f (Fin.castLE hn k)
      = ∑ k ∈ (univ : Finset (Fin n)).map ⟨Fin.castLE hn, Fin.castLE_injective hn⟩, f k := by
    rw [Finset.sum_map]; rfl
  rw [e]
  refine (Finset.sum_subset (Finset.subset_univ _) fun k _ hk => hz k ?_).symm
  by_contra hlt
  exact hk (Finset.mem_map.2 ⟨⟨k.val, Nat.lt_of_not_le hlt⟩, Finset.mem_univ _, Fin.ext rfl⟩)

/-- The same read from the short side: a sum over `Fin n` is the sum over `Fin N` of its extension by zero. -/
theorem sum_extend_zero {M : Type*} [AddCommMonoid M] {n N : ℕ} (hn : n ≤ N) (g : Fin n → M) :
    ∑ k : Fin n, g k = ∑ k : Fin N, (if h : k.val < n then g ⟨k.val, h⟩ else 0) := by
  rw [sum_castLE hn (fun k : Fin N => if h : k.val < n then g ⟨k.val, h⟩ else 0)
    (fun k hk => dif_neg (Nat.not_lt.2 hk))]
  refine Finset.sum_congr rfl fun k _ => ?_
  rw [dif_pos (show (Fin.castLE hn k).val < n from k.isLt)]
  rfl

end Cert.LibPadSum
-- ==== Proof.SignNet.lean ====
/-
  The mathematics of a three-layer sign network on the extended reals, with no program in sight.

  A LAYER sends a row `h` to the row of steps `step (∑ k, h k * step (W j k))`: the weights enter through their steps
  (`1` where the weight is at least `0`, `-1` below), the products are summed, and the sum is stepped again.
  The same layer can be computed over rows and weight tables PADDED with zeros to wider extents: a padded lane meets a
  zero weight, so it adds `0` to every sum whatever it holds (`a * 0 = 0` on the extended reals, at the infinities
  too), and the first `n` lanes of the padded computation are the unpadded one (`sum_mul_padT`).
  The first layer may also be computed as the sum of two products, of the row and of the row's difference from
  itself: for a row of real numbers that difference is `0` (on the extended reals `⊤ - ⊤ = ⊥`, so this is where
  finiteness is used) and the second product vanishes (`klayer0_padT`).
-/
import Idealize.ShloMosaic.PureOps.Ideal
import Mathlib.Algebra.BigOperators.Fin
import proofs.«150486_j71854802862513_2_alg».proof.Proof.LibPadSum

noncomputable section

namespace Cert.SignNet

open Finset Cert.LibPadSum

/-- The step: `1` at a value that is at least `0`, `-1` below. -/
def step (v : EReal) : EReal := if 0 ≤ v then 1 else -1

/-- One layer: entry `j` is the step of the sum of the row's products with the stepped weight row `j`. -/
def layer {n p : ℕ} (W : Fin p → Fin n → EReal) (h : Fin n → EReal) : Fin p → EReal :=
  fun j => step (∑ k : Fin n, h k * step (W j k))

/-- The whole network on one row: three layers, the last with one output, sent from `{-1, 1}` to `{0, 1}` by
    `(· + 1) * half`. -/
def net {n₀ n₁ n₂ : ℕ} (half : EReal) (W0 : Fin n₁ → Fin n₀ → EReal) (W1 : Fin n₂ → Fin n₁ → EReal)
    (W2 : Fin 1 → Fin n₂ → EReal) (x : Fin n₀ → EReal) : EReal :=
  (layer W2 (layer W1 (layer W0 x)) 0 + 1) * half

/-- The stepped weights, transposed, and padded with zeros to `N` rows and `P` columns. -/
def padT {n p : ℕ} (N P : ℕ) (W : Fin p → Fin n → EReal) : Fin N → Fin P → EReal :=
  fun k j => if h : k.val < n ∧ j.val < p then step (W ⟨j.val, h.2⟩ ⟨k.val, h.1⟩) else 0

/-- A row padded with zeros to `N` lanes. -/
def padRow {n : ℕ} (N : ℕ) (x : Fin n → EReal) : Fin N → EReal :=
  fun k => if h : k.val < n then x ⟨k.val, h⟩ else 0

/-- One layer over a table that is already stepped, transposed and padded: column `j` of the row-by-table product, stepped. -/
def klayer {N P : ℕ} (A : Fin N → Fin P → EReal) (h : Fin N → EReal) : Fin P → EReal :=
  fun j => step (∑ k : Fin N, h k * A k j)

/-- The same with the row split into itself and its difference from itself, the two products added. -/
def klayer0 {N P : ℕ} (A : Fin N → Fin P → EReal) (h : Fin N → EReal) : Fin P → EReal :=
  fun j => step ((∑ k : Fin N, h k * A k j) + ∑ k : Fin N, (h k - h k) * A k j)

/-- The padded network on one padded row, every output lane. -/
def knet {N P : ℕ} (half : EReal) (A0 A1 : Fin N → Fin N → EReal) (A2 : Fin N → Fin P → EReal) (xp : Fin N → EReal) :
    Fin P → EReal :=
  fun l => (klayer A2 (klayer A1 (klayer0 A0 xp)) l + 1) * half

/-- The padded network depends only on its tables, its row and its lane. -/
theorem knet_congr {N P : ℕ} (half : EReal) {A0 A0' A1 A1' : Fin N → Fin N → EReal} {A2 A2' : Fin N → Fin P → EReal}
    {xp xp' : Fin N → EReal} {l l' : Fin P} (h0 : A0 = A0') (h1 : A1 = A1') (h2 : A2 = A2') (hx : xp = xp') (hl : l = l') :
    knet half A0 A1 A2 xp l = knet half A0' A1' A2' xp' l' := by
  subst h0 h1 h2 hx hl; rfl

/-- A padded row against a padded table, at a column inside the table: the padding lanes meet zeros. -/
theorem sum_mul_padT {n p N P : ℕ} (hn : n ≤ N) (W : Fin p → Fin n → EReal) (h : Fin N → EReal) (j : Fin P)
    (hj : j.val < p) :
    ∑ k : Fin N, h k * padT N P W k j = ∑ k : Fin n, h (Fin.castLE hn k) * step (W ⟨j.val, hj⟩ k) := by
  rw [sum_castLE hn (fun k => h k * padT N P W k j) (fun k hk => by
    unfold padT; rw [dif_neg (fun hh => absurd hh.1 (Nat.not_lt.2 hk)), mul_zero])]
  refine Finset.sum_congr rfl fun k _ => ?_
  unfold padT
  rw [dif_pos (show (Fin.castLE hn k).val < n ∧ j.val < p from ⟨k.isLt, hj⟩)]
  rfl

/-- A padded layer at a column inside the table is the layer of the row's first lanes. -/
theorem klayer_padT {n p N P : ℕ} (hn : n ≤ N) (W : Fin p → Fin n → EReal) (h : Fin N → EReal) (j : Fin P)
    (hj : j.val < p) :
    klayer (padT N P W) h j = layer W (fun k => h (Fin.castLE hn k)) ⟨j.val, hj⟩ := by
  unfold klayer layer
  rw [sum_mul_padT hn W h j hj]

/-- The split first layer, for a row whose every lane is its own difference's zero. -/
theorem klayer0_padT {n p N P : ℕ} (hn : n ≤ N) (W : Fin p → Fin n → EReal) (h : Fin N → EReal)
    (hfin : ∀ k, h k - h k = 0) (j : Fin P) (hj : j.val < p) :
    klayer0 (padT N P W) h j = layer W (fun k => h (Fin.castLE hn k)) ⟨j.val, hj⟩ := by
  unfold klayer0 layer
  rw [sum_mul_padT hn W h j hj]
  have e : ∑ k : Fin N, (h k - h k) * padT N P W k j = 0 :=
    Finset.sum_eq_zero fun k _ => by rw [hfin k, zero_mul]
  rw [e, add_zero]

/-- A real number's difference from itself is `0`. -/
theorem sub_self_of_real {a : EReal} (ht : a ≠ ⊤) (hb : a ≠ ⊥) : a - a = 0 := by
  lift a to ℝ using ⟨ht, hb⟩
  rw [← EReal.coe_sub, sub_self, EReal.coe_zero]

/-- Every lane of a padded row of real numbers is its own difference's zero. -/
theorem padRow_sub_self {n : ℕ} (N : ℕ) (x : Fin n → EReal) (hx : ∀ k, x k ≠ ⊤ ∧ x k ≠ ⊥) (k : Fin N) :
    padRow N x k - padRow N x k = 0 := by
  unfold padRow
  by_cases h : k.val < n
  · rw [dif_pos h]; exact sub_self_of_real (hx _).1 (hx _).2
  · rw [dif_neg h, sub_zero]

/-- The first lanes of a padded row are the row. -/
theorem padRow_castLE {n N : ℕ} (hn : n ≤ N) (x : Fin n → EReal) (k : Fin n) : padRow N x (Fin.castLE hn k) = x k := by
  unfold padRow
  rw [dif_pos (show (Fin.castLE hn k).val < n from k.isLt)]
  rfl

/-- THE LAW: on a row of real numbers the padded network's lane `0` is the network. -/
theorem knet_eq_net {n N P : ℕ} (hn : n ≤ N) (hP : 0 < P) (half : EReal) (W0 W1 : Fin n → Fin n → EReal)
    (W2 : Fin 1 → Fin n → EReal) (x : Fin n → EReal) (hx : ∀ k, x k ≠ ⊤ ∧ x k ≠ ⊥) :
    knet half (padT N N W0) (padT N N W1) (padT N P W2) (padRow N x) ⟨0, hP⟩ = net half W0 W1 W2 x := by
  unfold knet net
  have e0 : (fun k : Fin n => klayer0 (padT N N W0) (padRow N x) (Fin.castLE hn k)) = layer W0 x := by
    funext k
    rw [klayer0_padT hn W0 (padRow N x) (padRow_sub_self N x hx) (Fin.castLE hn k) k.isLt]
    exact congrArg (fun r => layer W0 r k) (funext fun k' => padRow_castLE hn x k')
  have e1 : (fun k : Fin n => klayer (padT N N W1) (klayer0 (padT N N W0) (padRow N x)) (Fin.castLE hn k))
      = layer W1 (layer W0 x) := by
    funext k
    rw [klayer_padT hn W1 _ (Fin.castLE hn k) k.isLt, e0]
    rfl
  rw [klayer_padT hn W2 _ ⟨0, hP⟩ (by decide : (0 : ℕ) < 1), e1]
  rfl

end Cert.SignNet

end
-- ==== Proof.Words.lean ====
/-
  The float words the two programs write, read as extended reals, and the select-on-a-comparison both programs
  spell the step with.

  The words: `0x00000000` is `0`, `0x3F800000` is `1`, `0xBF800000` is `-1`. The padding value of the weight tables is
  the integer `0` converted, again `0`.
  The step: `select (v ≥ 0) one minus_one` is `SignNet.step v`, whether `minus_one` is the word `0xBF800000` or the
  negation of the word `0x3F800000`.
-/
import Idealize.ShloMosaic.PureOps.Ideal.Laws
import proofs.«150486_j71854802862513_2_alg».proof.Proof.SignNet

noncomputable section

namespace Cert.Words

open Idealize.ShloMosaic Cert.SignNet

/-- The word `0x3F800000` is `1`. -/
theorem one_word : Ideal.ofBits .f32 0x3F800000#32 = 1 := by
  simp [Ideal.ofBits, Ideal.ieee, -EReal.coe_mul]
  norm_num

/-- The word `0xBF800000` is `-1`. -/
theorem neg_one_word : Ideal.ofBits .f32 0xBF800000#32 = -1 := by
  simp [Ideal.ofBits, Ideal.ieee, -EReal.coe_mul]
  norm_num

/-- The 32-bit integer `0`, converted to a float, is `0`. -/
theorem sitofp_zero : FloatOps.sitofp (F := Ideal) .f32 (0#32 : BitVec 32) = 0 := by
  show (((0#32 : BitVec 32).toInt : ℝ) : EReal) = 0
  simp

/-- A select on `v ≥ 0` between `1` and `-1` is the step. -/
theorem select_ge (v : EReal) : Scalar.select (Ideal.cmp .oge v 0) (1 : EReal) (-1) = step v := by
  unfold Scalar.select Ideal.cmp step
  by_cases h : (0 : EReal) ≤ v
  · simp [h]
  · simp [h]

/-- The step as the kernel spells it: the words `0`, `1`, `-1`. -/
theorem select_words (v : EReal) :
    Scalar.select (FloatOps.cmpf (F := Ideal) (φ := .f32) .oge v (Ideal.ofBits .f32 0x00000000#32))
      (Ideal.ofBits .f32 0x3F800000#32) (Ideal.ofBits .f32 0xBF800000#32) = step v := by
  rw [Ideal.cmpf_def, Ideal.ofBits_zero_f32, one_word, neg_one_word]
  exact select_ge v

/-- The step as the reference spells it: the words `0`, `1`, and `1` negated. -/
theorem select_neg_word (v : EReal) :
    Scalar.select (FloatOps.cmpf (F := Ideal) (φ := .f32) .oge v (Ideal.ofBits .f32 0x00000000#32))
      (Ideal.ofBits .f32 0x3F800000#32) (FloatOps.hostNegf (F := Ideal) (φ := .f32) (Ideal.ofBits .f32 0x3F800000#32)) = step v := by
  rw [Ideal.cmpf_def, Ideal.ofBits_zero_f32, one_word]
  exact select_ge v

end Cert.Words

end
-- ==== Proof.KernelRow.lean ====
/-
  The kernel body's value at an index of its output block.

  One grid point loads a block of 1024 rows of `x` and the three weight tables (already stepped, transposed and padded to
  1152 lanes by the host). Row `r` of the block is padded with zeros to 1152 lanes; the first layer is the sum of two
  matrix products, of the padded row and of its difference from itself; each layer's product is stepped (a select on
  `≥ 0` between the words `1` and `-1`); the last step is sent to `{0, 1}` by `(· + 1) * 0.5`. A change of float format
  is the identity on the extended reals, and a matrix product into a zero accumulator is the plain sum over the
  contracted lane. So at row `r`, lane `l` the block holds `SignNet.knet` of the padded row and the three tables
  (`payload_apply`).
-/
import proofs.«150486_j71854802862513_2_alg».proof.Proof.Gen.KernelIdeal.Skeleton
import proofs.«150486_j71854802862513_2_alg».proof.Proof.SignNet
import proofs.«150486_j71854802862513_2_alg».proof.Proof.Words
import Idealize.ShloMosaic.Lib.ValueIdx
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.SignNet

/-- A float word as a scalar of the ideal instance is the extended real it denotes. -/
theorem scalar_ofBits (φ : FTy) (b : BitVec φ.bits) : Scalar.ofBits (F := Ideal) φ b = Ideal.ofBits φ b := rfl

/-- Row `r` of the loaded block, with 127 zero lanes appended, is the padded row. -/
theorem xpad_apply (x0 : FVec Ideal S1024x1025 .f32) (r : Fin 1024) (k : Fin 1152) :
    concatenate S1024x1152 1 [⟨S1024x1025, x0⟩, ⟨S1024x127, broadcast S1024x127 (Ideal.ofBits .f32 0x00000000#32)⟩]
        concatenates_S1024x1025_S1024x127_S1024x1152_d1 (ix2 r k)
      = padRow 1152 (fun k' : Fin 1025 => x0 (ix2 r k')) k := by
  unfold padRow
  by_cases h : k.val < 1025
  · rw [dif_pos h]
    exact concatenate_pair_apply_left (t := S1024x1152) (1 : Fin 2) x0 _ concatenates_S1024x1025_S1024x127_S1024x1152_d1
      (ix2 r k) rfl (ix2 r ⟨k.val, h⟩) (fun b => match b with | ⟨0, _⟩ => rfl | ⟨1, _⟩ => rfl)
  · rw [dif_neg h]
    have hk : k.val - 1025 < 127 := by have := k.isLt; omega
    refine (concatenate_pair_apply_right (t := S1024x1152) (1 : Fin 2) x0 _ concatenates_S1024x1025_S1024x127_S1024x1152_d1
      (ix2 r k) rfl rfl (ix2 r ⟨k.val - 1025, hk⟩) (fun b hb => ?_) ?_).trans ?_
    · match b with
      | ⟨0, _⟩ => rfl
      | ⟨1, _⟩ => exact absurd rfl hb
    · show (k.val - 1025) + 1025 = k.val
      omega
    · show Ideal.ofBits .f32 0x00000000#32 = 0
      exact Ideal.ofBits_zero_f32

/-- A 1024×1152 by 1152×1152 matrix product into the zero accumulator, at row `r`, column `j`: the sum over the 1152
    contracted lanes of the products of row `r` of the left operand with column `j` of the right. -/
theorem mm_wide_apply (L : FVec Ideal S1024x1152 .bf16) (R : FVec Ideal S1152x1152 .bf16) (r : Fin 1024) (j : Fin 1152) :
    matmul dot_S1024x1152_S1152x1152_S1024x1152_1_0_0_1_n_n none L R (constant S1024x1152 .f32 0x00000000#32) (ix2 r j)
      = ∑ k : Fin 1152, L (ix2 r k) * R (ix2 k j) := by
  simp only [matmul]
  rw [Ideal.matmul_constant_zero_apply, ← Equiv.sum_comp (contrEquiv1 dot_S1024x1152_S1152x1152_S1024x1152_1_0_0_1_n_n 1152 rfl rfl).symm]
  refine Finset.sum_congr rfl fun k _ => ?_
  have hk := contrEquiv1_symm_val dot_S1024x1152_S1152x1152_S1024x1152_1_0_0_1_n_n 1152 rfl rfl k
  have l0 : ∀ q : dot_S1024x1152_S1152x1152_S1024x1152_1_0_0_1_n_n.contr.Idx, (dot_S1024x1152_S1152x1152_S1024x1152_1_0_0_1_n_n.lhsIdx (ix2 r j) q 0).val = r.val := fun q => by
    unfold DotDims.lhsIdx
    rw [dif_neg (show ¬(0 : Fin S1024x1152.rank) ∈ dot_S1024x1152_S1152x1152_S1024x1152_1_0_0_1_n_n.lhsBatch by decide), dif_pos (show (0 : Fin S1024x1152.rank) ∈ dot_S1024x1152_S1152x1152_S1024x1152_1_0_0_1_n_n.lhsNonContracting by decide)]
    rfl
  have r1 : ∀ q : dot_S1024x1152_S1152x1152_S1024x1152_1_0_0_1_n_n.contr.Idx, (dot_S1024x1152_S1152x1152_S1024x1152_1_0_0_1_n_n.rhsIdx (ix2 r j) q 1).val = j.val := fun q => by
    unfold DotDims.rhsIdx
    rw [dif_neg (show ¬(1 : Fin S1152x1152.rank) ∈ dot_S1024x1152_S1152x1152_S1024x1152_1_0_0_1_n_n.rhsBatch by decide), dif_pos (show (1 : Fin S1152x1152.rank) ∈ dot_S1024x1152_S1152x1152_S1024x1152_1_0_0_1_n_n.rhsNonContracting by decide)]
    rfl
  have el : dot_S1024x1152_S1152x1152_S1024x1152_1_0_0_1_n_n.lhsIdx (ix2 r j) ((contrEquiv1 dot_S1024x1152_S1152x1152_S1024x1152_1_0_0_1_n_n 1152 rfl rfl).symm k) = ix2 r k := funext fun a => Fin.ext (by
    match a with
    | ⟨0, _⟩ => exact l0 _
    | ⟨1, _⟩ => exact (dot_S1024x1152_S1152x1152_S1024x1152_1_0_0_1_n_n.lhsIdx_val_of_single rfl (ix2 r j) _).trans hk)
  have er : dot_S1024x1152_S1152x1152_S1024x1152_1_0_0_1_n_n.rhsIdx (ix2 r j) ((contrEquiv1 dot_S1024x1152_S1152x1152_S1024x1152_1_0_0_1_n_n 1152 rfl rfl).symm k) = ix2 k j := funext fun a => Fin.ext (by
    match a with
    | ⟨0, _⟩ => exact (dot_S1024x1152_S1152x1152_S1024x1152_1_0_0_1_n_n.rhsIdx_val_of_single rfl (ix2 r j) _).trans hk
    | ⟨1, _⟩ => exact r1 _)
  rw [el, er]

/-- The same for the last layer's 1024×1152 by 1152×128 product. -/
theorem mm_narrow_apply (L : FVec Ideal S1024x1152 .bf16) (R : FVec Ideal S1152x128 .bf16) (r : Fin 1024) (j : Fin 128) :
    matmul dot_S1024x1152_S1152x128_S1024x128_1_0_0_1_n_n none L R (constant S1024x128 .f32 0x00000000#32) (ix2 r j)
      = ∑ k : Fin 1152, L (ix2 r k) * R (ix2 k j) := by
  simp only [matmul]
  rw [Ideal.matmul_constant_zero_apply, ← Equiv.sum_comp (contrEquiv1 dot_S1024x1152_S1152x128_S1024x128_1_0_0_1_n_n 1152 rfl rfl).symm]
  refine Finset.sum_congr rfl fun k _ => ?_
  have hk := contrEquiv1_symm_val dot_S1024x1152_S1152x128_S1024x128_1_0_0_1_n_n 1152 rfl rfl k
  have l0 : ∀ q : dot_S1024x1152_S1152x128_S1024x128_1_0_0_1_n_n.contr.Idx, (dot_S1024x1152_S1152x128_S1024x128_1_0_0_1_n_n.lhsIdx (ix2 r j) q 0).val = r.val := fun q => by
    unfold DotDims.lhsIdx
    rw [dif_neg (show ¬(0 : Fin S1024x1152.rank) ∈ dot_S1024x1152_S1152x128_S1024x128_1_0_0_1_n_n.lhsBatch by decide), dif_pos (show (0 : Fin S1024x1152.rank) ∈ dot_S1024x1152_S1152x128_S1024x128_1_0_0_1_n_n.lhsNonContracting by decide)]
    rfl
  have r1 : ∀ q : dot_S1024x1152_S1152x128_S1024x128_1_0_0_1_n_n.contr.Idx, (dot_S1024x1152_S1152x128_S1024x128_1_0_0_1_n_n.rhsIdx (ix2 r j) q 1).val = j.val := fun q => by
    unfold DotDims.rhsIdx
    rw [dif_neg (show ¬(1 : Fin S1152x128.rank) ∈ dot_S1024x1152_S1152x128_S1024x128_1_0_0_1_n_n.rhsBatch by decide), dif_pos (show (1 : Fin S1152x128.rank) ∈ dot_S1024x1152_S1152x128_S1024x128_1_0_0_1_n_n.rhsNonContracting by decide)]
    rfl
  have el : dot_S1024x1152_S1152x128_S1024x128_1_0_0_1_n_n.lhsIdx (ix2 r j) ((contrEquiv1 dot_S1024x1152_S1152x128_S1024x128_1_0_0_1_n_n 1152 rfl rfl).symm k) = ix2 r k := funext fun a => Fin.ext (by
    match a with
    | ⟨0, _⟩ => exact l0 _
    | ⟨1, _⟩ => exact (dot_S1024x1152_S1152x128_S1024x128_1_0_0_1_n_n.lhsIdx_val_of_single rfl (ix2 r j) _).trans hk)
  have er : dot_S1024x1152_S1152x128_S1024x128_1_0_0_1_n_n.rhsIdx (ix2 r j) ((contrEquiv1 dot_S1024x1152_S1152x128_S1024x128_1_0_0_1_n_n 1152 rfl rfl).symm k) = ix2 k j := funext fun a => Fin.ext (by
    match a with
    | ⟨0, _⟩ => exact (dot_S1024x1152_S1152x128_S1024x128_1_0_0_1_n_n.rhsIdx_val_of_single rfl (ix2 r j) _).trans hk
    | ⟨1, _⟩ => exact r1 _)
  rw [el, er]

/-- THE BLOCK'S VALUE at row `r`, lane `l`: the padded network of the padded row `r` and the three loaded tables. -/
theorem payload_apply (x0 : FVec Ideal S1024x1025 .f32) (a0 a1 : FVec Ideal S1152x1152 .bf16) (a2 : FVec Ideal S1152x128 .bf16)
    (r : Fin 1024) (l : Fin 128) :
    k0_pay1 (k0_pay2 x0 a0 a1 a2) (k0_pay3 (F := Ideal)) (ix2 r l)
      = knet (Ideal.ofBits .f32 0x3F000000#32) (fun k j => a0 (ix2 k j)) (fun k j => a1 (ix2 k j)) (fun k j => a2 (ix2 k j))
          (padRow 1152 (fun k' : Fin 1025 => x0 (ix2 r k'))) l := by
  unfold k0_pay1 k0_pay2 k0_pay3
  simp only [truncf_apply, mulf_apply, addf_apply, subf_apply, broadcast_apply, select_apply, cmpf_apply,
    shapeCast_self, mm_narrow_apply, mm_wide_apply, scalar_ofBits, xpad_apply, Cert.Words.select_words]
  rw [Cert.Words.one_word]
  rfl

end Cert.KernelIdeal.RowValue

end
-- ==== Proof.Blocks.lean ====
/-
  From the blocks to the whole array.

  The grid has 16 points; point `t` loads rows `1024 t … 1024 t + 1023` of `x` and the three whole tables, and writes
  back the same rows of a 16384 × 128 array. Every row of the block is computed from the same row of `x` alone, so what
  a point writes back is its block of ONE function of the arrays as the region finds them (`rowValue`: the padded
  network on the padded row, at the lane), the 16 blocks tile the array, and the array after the run is that function.
-/
import proofs.«150486_j71854802862513_2_alg».proof.Proof.Gen.KernelIdeal.Frame
import proofs.«150486_j71854802862513_2_alg».proof.Proof.KernelRow
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.SignNet
open Idealize.ShloMosaic.Pipeline (Dat)

variable (m : (ℓ : Loc nD τ sig) → Buf (Elt Ideal) ℓ) (ρ : Dev nD → PrngReg)

/-- Row `r`, lane `l` of the output: the padded network of row `r` of `X`, padded, and the three tables. -/
def rowValue (X : S16384x1025.Idx → EReal) (a0 a1 : S1152x1152.Idx → EReal) (a2 : S1152x128.Idx → EReal)
    (r : Fin 16384) (l : Fin 128) : EReal :=
  knet (Ideal.ofBits .f32 0x3F000000#32) (fun k j => a0 (ix2 k j)) (fun k j => a1 (ix2 k j)) (fun k j => a2 (ix2 k j))
    (padRow 1152 (fun k' : Fin 1025 => X (ix2 r k'))) l

/-- The whole 16384 × 128 array as one function of the arrays the region finds. -/
def whole (X : S16384x1025.Idx → EReal) (a0 a1 : S1152x1152.Idx → EReal) (a2 : S1152x128.Idx → EReal) :
    S16384x128.Idx → EReal :=
  fun i => rowValue X a0 a1 a2 ⟨(i 0).val, idx2_lt0 i⟩ ⟨(i 1).val, idx2_lt1 i⟩

theorem offsets_zero : (![0, 0] : Fin 2 → Nat) = fun _ => 0 := funext fun a => by fin_cases a <;> rfl

/-- The printed index maps over the 16 points: `x`'s window moves with the output's along the rows and stays at column
    block `0`; the tables' windows stay at block `(0, 0)`; the output's column block is `0`. -/
theorem index_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 15 ∧ win0_4.index t (1 : Fin 2) = 0 :=
  (by decide +kernel : ∀ t : Fin grid0.N, _)

/-- Every row block is some point's. -/
theorem index_onto : ∀ q : Fin 16, ∃ t : Fin cfg0.N, win0_4.index t = ![q.val, 0] :=
  (by decide +kernel : ∀ q : Fin 16, ∃ t : Fin grid0.N, win0_4.index t = ![q.val, 0])

/-- The first table's block at any point is the whole table. -/
theorem table0_blk (c : Dev nD) (t : Fin cfg0.N) (k j : Fin 1152) :
    iblk m c 1 t (ix2 k j) = V m c main_v6 (ix2 k j) := by
  obtain ⟨-, -, e0, e1, -⟩ := index_facts t
  show V m c main_v6 (((cfg0.win 1).blk t).view.emb (ix2 k j)) = V m c main_v6 (ix2 k j)
  refine congrArg _ (funext fun a => Fin.ext ?_)
  match a with
  | ⟨0, _⟩ => show win0_1.index t (0 : Fin 2) * 1152 + 1 * k.val = k.val; omega
  | ⟨1, _⟩ => show win0_1.index t (1 : Fin 2) * 1152 + 1 * j.val = j.val; omega

/-- The second table's block at any point is the whole table. -/
theorem table1_blk (c : Dev nD) (t : Fin cfg0.N) (k j : Fin 1152) :
    iblk m c 2 t (ix2 k j) = V m c main_v13 (ix2 k j) := by
  obtain ⟨-, -, -, -, e0, e1, -⟩ := index_facts t
  show V m c main_v13 (((cfg0.win 2).blk t).view.emb (ix2 k j)) = V m c main_v13 (ix2 k j)
  refine congrArg _ (funext fun a => Fin.ext ?_)
  match a with
  | ⟨0, _⟩ => show win0_2.index t (0 : Fin 2) * 1152 + 1 * k.val = k.val; omega
  | ⟨1, _⟩ => show win0_2.index t (1 : Fin 2) * 1152 + 1 * j.val = j.val; omega

/-- The third table's block at any point is the whole table. -/
theorem table2_blk (c : Dev nD) (t : Fin cfg0.N) (k : Fin 1152) (j : Fin 128) :
    iblk m c 3 t (ix2 k j) = V m c main_v20 (ix2 k j) := by
  obtain ⟨-, -, -, -, -, -, e0, e1, -⟩ := index_facts t
  show V m c main_v20 (((cfg0.win 3).blk t).view.emb (ix2 k j)) = V m c main_v20 (ix2 k j)
  refine congrArg _ (funext fun a => Fin.ext ?_)
  match a with
  | ⟨0, _⟩ => show win0_3.index t (0 : Fin 2) * 1152 + 1 * k.val = k.val; omega
  | ⟨1, _⟩ => show win0_3.index t (1 : Fin 2) * 128 + 1 * j.val = j.val; omega

/-- Row `p` of `x`'s block at point `t` is the row of `x` that row `p` of the output's block lies on. -/
theorem x_blk (c : Dev nD) (t : Fin cfg0.N) (p : Fin 1024) (q : Fin 128) (k' : Fin 1025) (r : Fin 16384)
    (hr : r.val = ((((cfg0.win 4).blk t).view.emb (ix2 p q)) 0).val) :
    iblk m c 0 t (ix2 p k') = V m c main_arg0 (ix2 r k') := by
  obtain ⟨e0, e1, -⟩ := index_facts t
  show V m c main_arg0 (((cfg0.win 0).blk t).view.emb (ix2 p k')) = V m c main_arg0 (ix2 r k')
  refine congrArg _ (funext fun a => Fin.ext ?_)
  have hr' : r.val = win0_4.index t (0 : Fin 2) * 1024 + 1 * p.val := hr
  match a with
  | ⟨0, _⟩ => show win0_0.index t (0 : Fin 2) * 1024 + 1 * p.val = r.val; omega
  | ⟨1, _⟩ => show win0_0.index t (1 : Fin 2) * 1025 + 1 * k'.val = k'.val; omega

/-- WHAT POINT `t` WRITES BACK is its block of `whole` of the arrays as the region finds them. -/
theorem flushed_eq (c : Dev nD) (t : Fin cfg0.N) :
    (dats m 0 c).flushed 4 t = ((cfg0.win 4).blk t).view.read (Elt Ideal)
      (whole (V m c main_arg0) (V m c main_v6) (V m c main_v13) (V m c main_v20)) := by
  show (cfg0.win 4).cut (grid0.coords t) ((dats m 0 c).after 4 t) = _
  rw [after0_4]
  unfold out0_4
  rw [View.canon_unit_zero offsets_zero]
  simp only [View.ld_unit_zero (S := S1024x1025) offsets_zero, View.ld_unit_zero (S := S1152x1152) offsets_zero,
    View.ld_unit_zero (S := S1152x128) offsets_zero]
  funext y
  obtain ⟨p, q, rfl⟩ : ∃ (p : Fin 1024) (q : Fin 128), y = ix2 p q := ⟨y 0, y 1, eq_ix2 y⟩
  show k0_pay1 (k0_pay2 (iblk m c 0 t) (iblk m c 1 t) (iblk m c 2 t) (iblk m c 3 t)) (k0_pay3 (F := Ideal)) (ix2 p q)
    = whole (V m c main_arg0) (V m c main_v6) (V m c main_v13) (V m c main_v20) (((cfg0.win 4).blk t).view.emb (ix2 p q))
  refine (RowValue.payload_apply (iblk m c 0 t) (iblk m c 1 t) (iblk m c 2 t) (iblk m c 3 t) p q).trans ?_
  unfold whole rowValue
  obtain ⟨-, -, -, -, -, -, -, -, -, e1⟩ := index_facts t
  refine knet_congr _ (funext fun k => funext fun j => table0_blk m c t k j)
    (funext fun k => funext fun j => table1_blk m c t k j) (funext fun k => funext fun j => table2_blk m c t k j)
    (congrArg (padRow 1152) (funext fun k' => x_blk m c t p q k' _ rfl)) (Fin.ext ?_)
  show q.val = win0_4.index t (1 : Fin 2) * 128 + 1 * q.val
  omega

/-- An index of the array is in point `t`'s block iff each coordinate is in the block's range on its axis. -/
theorem mem_blk (t : Fin cfg0.N) (i : S16384x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v21).slice (win0_4.rect t)).set ↔ _
  rw [View.set_slice_whole, Rect.mem_set_unit]
  exact Iff.rfl

/-- The 16 blocks tile the array: row `i` is in the block of point `i / 1024`. -/
theorem cover (i : S16384x128.Idx) :
    ∃ t : Fin cfg0.N, (cfg0.win 4).flush t = true ∧ i ∈ ((cfg0.win 4).blk t).view.set := by
  have hi0 : (i 0).val < 16384 := (i 0).isLt
  have hi1 : (i 1).val < 128 := (i 1).isLt
  obtain ⟨t, ht⟩ := index_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 128 ≤ (i 1).val ∧ (i 1).val < win0_4.index t (1 : Fin 2) * 128 + 128; omega

/-- THE ARRAY after the run is `whole` of the arrays as the region finds them. -/
theorem final (c : Dev nD) :
    (dats m 0 c).arrAt 4 cfg0.N = whole (V m c main_arg0) (V m c main_v6) (V m c main_v13) (V m c main_v20) :=
  (dats m 0 c).arrAt_eq_of_cover 4 _ (fun t _ => flushed_eq m c t) cover

end Cert.KernelIdeal.Blocks

end
-- ==== Proof.HostPrep.lean ====
/-
  The three weight tables as the region finds them.

  Before the region the host steps each weight table (a select on `≥ 0` between the words `1` and `-1`), pads it with the
  converted integer `0` to 1152 (or 128) rows and 1152 columns, transposes it, and changes its float format (the identity
  on the extended reals). Read at row `k`, column `j` the result is the step of the weight at `(j, k)` inside the table's
  real extent and `0` outside it: `SignNet.padT`.
-/
import proofs.«150486_j71854802862513_2_alg».proof.Proof.Gen.KernelIdeal.Frame
import proofs.«150486_j71854802862513_2_alg».proof.Proof.SignNet
import proofs.«150486_j71854802862513_2_alg».proof.Proof.Words
import Idealize.ShloMosaic.Lib.KernelVsHost
import Idealize.ShloMosaic.Lib.StableHlo.Run
import Idealize.ShloMosaic.Lib.ValueIdx
import Idealize.ShloMosaic.Lib.Pipeline.Value

noncomputable section

namespace Cert.KernelIdeal.HostPrep

open Cert.KernelIdeal Cert.KernelIdeal.Gen
open Idealize.ShloMosaic Idealize.ShloMosaic.TcCoe Idealize.SL.Sem Idealize.ShloMosaic.StableHlo
open Idealize.ShloMosaic.ValueIdx Cert.SignNet

/-- The host's preparation of a square weight table: stepped, padded with zeros to 1152 × 1152, transposed. -/
def prepSquare (W : FVec Ideal S1025x1025 .f32) : FVec Ideal S1152x1152 .bf16 :=
  truncf .bf16 (transpose S1152x1152 [1, 0]
    (pad S1152x1152 ![0, 0] ![127, 127] ![0, 0]
      (select (cmpf .oge W (broadcastInDim S1025x1025 ![] bcast_S_S1025x1025 (constant (F := Ideal) S_ .f32 0x00000000#32)))
        (broadcastInDim S1025x1025 ![] bcast_S_S1025x1025 (constant (F := Ideal) S_ .f32 0x3F800000#32))
        (broadcastInDim S1025x1025 ![] bcast_S_S1025x1025 (constant (F := Ideal) S_ .f32 0xBF800000#32)))
      (sitofp (F := Ideal) .f32 (constantI S_ 32 0#32)) pads_S1025x1025_S1152x1152_01270_01270 h_S_)
    transposes_S1152x1152_S1152x1152_1_0) bitsLt_bf16_f32

/-- The same for the last layer's one weight row: padded to 128 × 1152, transposed to 1152 × 128. -/
def prepLast (W : FVec Ideal S1x1025 .f32) : FVec Ideal S1152x128 .bf16 :=
  truncf .bf16 (transpose S1152x128 [1, 0]
    (pad S128x1152 ![0, 0] ![127, 127] ![0, 0]
      (select (cmpf .oge W (broadcastInDim S1x1025 ![] bcast_S_S1x1025 (constant (F := Ideal) S_ .f32 0x00000000#32)))
        (broadcastInDim S1x1025 ![] bcast_S_S1x1025 (constant (F := Ideal) S_ .f32 0x3F800000#32))
        (broadcastInDim S1x1025 ![] bcast_S_S1x1025 (constant (F := Ideal) S_ .f32 0xBF800000#32)))
      (sitofp (F := Ideal) .f32 (constantI S_ 32 0#32)) pads_S1x1025_S128x1152_01270_01270 h_S_)
    transposes_S128x1152_S1152x128_1_0) bitsLt_bf16_f32

/-- A prepared square table at row `k`, column `j`: the step of the weight at `(j, k)` inside 1025 × 1025, `0` outside. -/
theorem prepSquare_apply (W : FVec Ideal S1025x1025 .f32) (k : Fin 1152) (j : Fin 1152) :
    prepSquare W (ix2 k j) = padT 1152 1152 (fun (j' : Fin 1025) (k' : Fin 1025) => W (ix2 j' k')) k j := by
  unfold prepSquare padT
  rw [truncf_apply, transpose_apply [1, 0] _ transposes_S1152x1152_S1152x1152_1_0 (ix2 k j) (ix2 j k)
    (fun b => match b with | ⟨0, _⟩ => rfl | ⟨1, _⟩ => rfl)]
  by_cases h : k.val < 1025 ∧ j.val < 1025
  · rw [dif_pos h, pad_apply_of_inside _ _ _ _ _ pads_S1025x1025_S1152x1152_01270_01270 h_S_ (ix2 j k) (ix2 ⟨j.val, h.2⟩ ⟨k.val, h.1⟩)
      (fun a => match a with
        | ⟨0, _⟩ => by show j.val = 0 + j.val * (0 + 1); omega
        | ⟨1, _⟩ => by show k.val = 0 + k.val * (0 + 1); omega)]
    exact Cert.Words.select_words _
  · rw [dif_neg h]
    by_cases hj : j.val < 1025
    · have hk : ¬ k.val < 1025 := fun hk => h ⟨hk, hj⟩
      rw [pad_apply_of_not_inside _ _ _ _ _ pads_S1025x1025_S1152x1152_01270_01270 h_S_ (ix2 j k) (1 : Fin 2)
        (by show ¬(0 ≤ k.val ∧ (k.val - 0) % (0 + 1) = 0 ∧ (k.val - 0) / (0 + 1) < 1025); omega)]
      exact Cert.Words.sitofp_zero
    · rw [pad_apply_of_not_inside _ _ _ _ _ pads_S1025x1025_S1152x1152_01270_01270 h_S_ (ix2 j k) (0 : Fin 2)
        (by show ¬(0 ≤ j.val ∧ (j.val - 0) % (0 + 1) = 0 ∧ (j.val - 0) / (0 + 1) < 1025); omega)]
      exact Cert.Words.sitofp_zero

/-- The prepared last table at row `k`, column `j`: the step of the weight at `(0, k)` in column `0`, `0` elsewhere. -/
theorem prepLast_apply (W : FVec Ideal S1x1025 .f32) (k : Fin 1152) (j : Fin 128) :
    prepLast W (ix2 k j) = padT 1152 128 (fun (j' : Fin 1) (k' : Fin 1025) => W (ix2 j' k')) k j := by
  unfold prepLast padT
  rw [truncf_apply, transpose_apply [1, 0] _ transposes_S128x1152_S1152x128_1_0 (ix2 k j) (ix2 j k)
    (fun b => match b with | ⟨0, _⟩ => rfl | ⟨1, _⟩ => rfl)]
  by_cases h : k.val < 1025 ∧ j.val < 1
  · rw [dif_pos h, pad_apply_of_inside _ _ _ _ _ pads_S1x1025_S128x1152_01270_01270 h_S_ (ix2 j k) (ix2 ⟨j.val, h.2⟩ ⟨k.val, h.1⟩)
      (fun a => match a with
        | ⟨0, _⟩ => by show j.val = 0 + j.val * (0 + 1); omega
        | ⟨1, _⟩ => by show k.val = 0 + k.val * (0 + 1); omega)]
    exact Cert.Words.select_words _
  · rw [dif_neg h]
    by_cases hj : j.val < 1
    · have hk : ¬ k.val < 1025 := fun hk => h ⟨hk, hj⟩
      rw [pad_apply_of_not_inside _ _ _ _ _ pads_S1x1025_S128x1152_01270_01270 h_S_ (ix2 j k) (1 : Fin 2)
        (by show ¬(0 ≤ k.val ∧ (k.val - 0) % (0 + 1) = 0 ∧ (k.val - 0) / (0 + 1) < 1025); omega)]
      exact Cert.Words.sitofp_zero
    · rw [pad_apply_of_not_inside _ _ _ _ _ pads_S1x1025_S128x1152_01270_01270 h_S_ (ix2 j k) (0 : Fin 2)
        (by show ¬(0 ≤ j.val ∧ (j.val - 0) % (0 + 1) = 0 ∧ (j.val - 0) / (0 + 1) < 1); omega)]
      exact Cert.Words.sitofp_zero

variable (m : (ℓ : Loc nD τ sig) → Buf (Elt Ideal) ℓ)

/-- The first table the region stages is the first weight table, prepared. -/
theorem V_table0 (c : Dev nD) : (V m c main_v6 : S1152x1152.Idx → EReal) = prepSquare (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12,
    List.flatten_cons, List.flatten_nil, List.append_nil, List.cons_append, List.nil_append]
  after_results
  rfl

/-- The second is the second weight table, prepared. -/
theorem V_table1 (c : Dev nD) : (V m c main_v13 : S1152x1152.Idx → EReal) = prepSquare (m ((c.tc : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12,
    List.flatten_cons, List.flatten_nil, List.append_nil, List.cons_append, List.nil_append]
  after_results
  rfl

/-- The third is the last layer's weight row, prepared. -/
theorem V_table2 (c : Dev nD) : (V m c main_v20 : S1152x128.Idx → EReal) = prepLast (m ((c.tc : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12,
    List.flatten_cons, List.flatten_nil, List.append_nil, List.cons_append, List.nil_append]
  after_results
  rfl

end Cert.KernelIdeal.HostPrep

end
-- ==== Proof.KernelRun.lean ====
/-
  The kernel program's result as one function of its arguments, and its run.

  After the region the host takes column `0` of the 16384 × 128 array, drops the unit axis and changes the float format
  (the identity on the extended reals): entry `i` of the result is row `i`, lane `0` of the array. With the array
  after the run (`Blocks.final`), the tables as the region finds them (`HostPrep`) and `x` as launched, entry `i` is
  the padded network on row `i` of `x`, at lane `0` (`result`).
-/
import proofs.«150486_j71854802862513_2_alg».proof.Proof.Blocks
import proofs.«150486_j71854802862513_2_alg».proof.Proof.HostPrep
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.StableHlo
open Idealize.ShloMosaic.ValueIdx Cert.SignNet Cert.KernelIdeal.HostPrep
open Idealize.ShloMosaic.Pipeline (Dat)

variable (m : (ℓ : Loc nD τ sig) → Buf (Elt Ideal) ℓ) (ρ : Dev nD → PrngReg)

/-- THE RESULT: entry `i` is the padded network on row `i` of `X` with the three prepared tables, at lane `0`. -/
def result (X : S16384x1025.Idx → EReal) (W0 W1 : S1025x1025.Idx → EReal) (W2 : S1x1025.Idx → EReal) : S16384.Idx → EReal :=
  fun i => Blocks.rowValue X (prepSquare W0) (prepSquare W1) (prepLast W2) ⟨(i 0).val, (i 0).isLt⟩ ⟨0, by decide⟩

/-- What the host operations after the region leave in the result buffer. -/
theorem tail_value (c : Dev nD) :
    Pipeline.afterTail₀ cfgs (dats m) 0 (V0 m) [hostOps1] c main_v24
      = result (m ((c.tc : Thread nD τ).loc main_arg0)) (m ((c.tc : Thread nD τ).loc main_arg1)) (m ((c.tc : Thread nD τ).loc main_arg2)) (m ((c.tc : Thread nD τ).loc main_arg3)) := by
  have hA : Pipeline.withArrays spec0 c (V0 m c) (fun w => (dats m 0 c).arrAt w cfg0.N) (Proc.devRef .tc main_v21)
      = Blocks.whole (m ((c.tc : Thread nD τ).loc main_arg0)) (prepSquare (m ((c.tc : Thread nD τ).loc main_arg1))) (prepSquare (m ((c.tc : Thread nD τ).loc main_arg2))) (prepLast (m ((c.tc : Thread nD τ).loc main_arg3))) := by
    refine (Pipeline.withArrays_arr spec0 launch0.win.arr_inj c _ _ 4).trans ((Blocks.final m c).trans ?_)
    rw [V_main_arg0 m c, V_table0 m c, V_table1 m c, V_table2 m c]
  unfold Pipeline.afterTail₀
  show StableHlo.after hostOps1 _ (Proc.devRef .tc main_v24) = _
  after_results
  refine (congrArg (fun A : S16384x128.Idx → EReal => extf (F := Ideal) .f32 (shapeCast S16384
      (extractStridedSlice S16384x1 ![0, 0] A slices_S16384x128_S16384x1_0_0) shapeCasts_S16384x1_S16384) bitsLt_bf16_f32) hA).trans ?_
  funext i
  rw [extf_apply]
  refine (shapeCast_apply _ shapeCasts_S16384x1_S16384 i (ix2 (i 0) (0 : Fin 1))
    (by rewrite [Shape.rowMajor_val_two, Shape.rowMajor_val_one]; show (i 0).val * 1 + 0 = (i 0).val; omega)).trans ?_
  refine (extractStridedSlice_apply ![0, 0] _ slices_S16384x128_S16384x1_0_0 (ix2 (i 0) (0 : Fin 1)) (ix2 (i 0) (0 : Fin 128))
    (fun a => match a with
      | ⟨0, _⟩ => by show (i 0).val = 0 + (i 0).val; omega
      | ⟨1, _⟩ => by show (0 : ℕ) = 0 + 0; rfl)).trans ?_
  rfl

/-- THE RUN: every weakly fair execution of the kernel program terminates with the result buffer at `result` of the
    arguments as launched, and the arguments unchanged. -/
theorem run : θ_run defs (onTc (τ := τ) (main (F := Ideal))) ⟨m, fun _ => 0, ρ⟩ fun r => ∀ c : Dev nD,
      r.2.mem ((c.tc : Thread nD τ).loc main_v24) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.RefNet.lean ====
/-
  The reference's value at an index.

  The reference steps each weight table and transposes it, multiplies (a `dot_general`: at the ideal instance the plain
  sum over the contracted lane), steps the product (a select on `≥ 0` between the word `1` and its negation), three
  times over, and sends the last step to `{0, 1}` by `(· + 1) * 0.5`. Read one stage at a time (the generated stage
  lemmas), entry `i` of its result is `SignNet.net` on row `i` of `x`.
-/
import proofs.«150486_j71854802862513_2_alg».proof.Proof.RefRead
import proofs.«150486_j71854802862513_2_alg».proof.Proof.SignNet
import proofs.«150486_j71854802862513_2_alg».proof.Proof.Words
import Idealize.ShloMosaic.Lib.ValueIdx

noncomputable section

namespace Cert.ReferenceIdeal.RefValue

open Cert.ReferenceIdeal Cert.ReferenceIdeal.ReadP Idealize.ShloMosaic Idealize.ShloMosaic.ValueIdx Cert.SignNet

/-- The first weight table, stepped and transposed, at row `k`, column `j`: the step of the weight at `(j, k)`. -/
theorem table0_apply (x : (⟨S1025x1025, .f32⟩ : BufTy).Contents (Elt Ideal)) (k : Fin 1025) (j : Fin 1025) :
    val_main_v6 (F := Ideal) x (ix2 k j) = step (x (ix2 j k)) := by
  simp only [val_main_v6_apply, val_main_v5_apply, val_main_v1_apply, val_main_v0_apply, val_main_cst_apply, val_main_v2_apply, val_main_cst_0_apply, val_main_v4_apply, val_main_v3_apply, val_main_cst_1_apply]
  rw [(show idx_main_v6 (ix2 k j) = ix2 j k from funext fun a => Fin.ext (by match a with | ⟨0, _⟩ => rfl | ⟨1, _⟩ => rfl))]
  exact Cert.Words.select_neg_word _

/-- The second, the same. -/
theorem table1_apply (x : (⟨S1025x1025, .f32⟩ : BufTy).Contents (Elt Ideal)) (k : Fin 1025) (j : Fin 1025) :
    val_main_v20 (F := Ideal) x (ix2 k j) = step (x (ix2 j k)) := by
  simp only [val_main_v20_apply, val_main_v19_apply, val_main_v15_apply, val_main_v14_apply, val_main_cst_5_apply, val_main_v16_apply, val_main_cst_6_apply, val_main_v18_apply, val_main_v17_apply, val_main_cst_7_apply]
  rw [(show idx_main_v20 (ix2 k j) = ix2 j k from funext fun a => Fin.ext (by match a with | ⟨0, _⟩ => rfl | ⟨1, _⟩ => rfl))]
  exact Cert.Words.select_neg_word _

/-- The last layer's weight row, the same (one column). -/
theorem table2_apply (x : (⟨S1x1025, .f32⟩ : BufTy).Contents (Elt Ideal)) (k : Fin 1025) (j : Fin 1) :
    val_main_v34 (F := Ideal) x (ix2 k j) = step (x (ix2 j k)) := by
  simp only [val_main_v34_apply, val_main_v33_apply, val_main_v29_apply, val_main_v28_apply, val_main_cst_11_apply, val_main_v30_apply, val_main_cst_12_apply, val_main_v32_apply, val_main_v31_apply, val_main_cst_13_apply]
  rw [(show idx_main_v34 (ix2 k j) = ix2 j k from funext fun a => Fin.ext (by match a with | ⟨0, _⟩ => rfl | ⟨1, _⟩ => rfl))]
  exact Cert.Words.select_neg_word _

variable (x0 : (⟨S16384x1025, .f32⟩ : BufTy).Contents (Elt Ideal)) (x1 x2 : (⟨S1025x1025, .f32⟩ : BufTy).Contents (Elt Ideal))
  (x3 : (⟨S1x1025, .f32⟩ : BufTy).Contents (Elt Ideal))

/-- The first layer's activations at row `r`, lane `j`. -/
theorem layer0_apply (r : Fin 16384) (j : Fin 1025) :
    val_main_v13 (F := Ideal) x0 x1 (ix2 r j) = layer (fun j' k' => x1 (ix2 j' k')) (fun k' => x0 (ix2 r k')) j := by
  simp only [val_main_v13_apply, val_main_v9_apply, val_main_v8_apply, val_main_cst_2_apply, val_main_v10_apply,
    val_main_cst_3_apply, val_main_v12_apply, val_main_v11_apply, val_main_cst_4_apply]
  refine (Cert.Words.select_neg_word _).trans ?_
  unfold layer
  rw [val_main_v7_apply]
  refine congrArg step (Finset.sum_congr rfl fun k _ => ?_)
  rw [(show lidx_main_v7 (ix2 r j) k = ix2 r k from funext fun a => Fin.ext (by match a with | ⟨0, _⟩ => rfl | ⟨1, _⟩ => rfl)), (show ridx_main_v7 (ix2 r j) k = ix2 k j from funext fun a => Fin.ext (by match a with | ⟨0, _⟩ => rfl | ⟨1, _⟩ => rfl)), table0_apply]

/-- The second layer's activations at row `r`, lane `j`. -/
theorem layer1_apply (r : Fin 16384) (j : Fin 1025) :
    val_main_v27 (F := Ideal) x0 x1 x2 (ix2 r j)
      = layer (fun j' k' => x2 (ix2 j' k')) (layer (fun j' k' => x1 (ix2 j' k')) (fun k' => x0 (ix2 r k'))) j := by
  simp only [val_main_v27_apply, val_main_v23_apply, val_main_v22_apply, val_main_cst_8_apply, val_main_v24_apply,
    val_main_cst_9_apply, val_main_v26_apply, val_main_v25_apply, val_main_cst_10_apply]
  refine (Cert.Words.select_neg_word _).trans ?_
  unfold layer
  rw [val_main_v21_apply]
  refine congrArg step (Finset.sum_congr rfl fun k _ => ?_)
  rw [(show lidx_main_v21 (ix2 r j) k = ix2 r k from funext fun a => Fin.ext (by match a with | ⟨0, _⟩ => rfl | ⟨1, _⟩ => rfl)), (show ridx_main_v21 (ix2 r j) k = ix2 k j from funext fun a => Fin.ext (by match a with | ⟨0, _⟩ => rfl | ⟨1, _⟩ => rfl)), table1_apply,
    layer0_apply]
  rfl

/-- The last layer's one activation at row `r`. -/
theorem layer2_apply (r : Fin 16384) (j : Fin 1) :
    val_main_v41 (F := Ideal) x0 x1 x2 x3 (ix2 r j)
      = layer (fun j' k' => x3 (ix2 j' k')) (layer (fun j' k' => x2 (ix2 j' k')) (layer (fun j' k' => x1 (ix2 j' k')) (fun k' => x0 (ix2 r k')))) j := by
  simp only [val_main_v41_apply, val_main_v37_apply, val_main_v36_apply, val_main_cst_14_apply, val_main_v38_apply,
    val_main_cst_15_apply, val_main_v40_apply, val_main_v39_apply, val_main_cst_16_apply]
  refine (Cert.Words.select_neg_word _).trans ?_
  unfold layer
  rw [val_main_v35_apply]
  refine congrArg step (Finset.sum_congr rfl fun k _ => ?_)
  rw [(show lidx_main_v35 (ix2 r j) k = ix2 r k from funext fun a => Fin.ext (by match a with | ⟨0, _⟩ => rfl | ⟨1, _⟩ => rfl)), (show ridx_main_v35 (ix2 r j) k = ix2 k j from funext fun a => Fin.ext (by match a with | ⟨0, _⟩ => rfl | ⟨1, _⟩ => rfl)), table2_apply,
    layer1_apply]
  rfl

/-- THE REFERENCE'S RESULT at entry `i`: the network on row `i` of `x`. -/
theorem result_apply (i : S16384.Idx) :
    val_main_v46 (F := Ideal) x0 x1 x2 x3 i
      = net (Ideal.ofBits .f32 0x3F000000#32) (fun j' k' => x1 (ix2 j' k')) (fun j' k' => x2 (ix2 j' k')) (fun j' k' => x3 (ix2 j' k'))
          (fun k' => x0 (ix2 (⟨(i 0).val, (i 0).isLt⟩ : Fin 16384) k')) := by
  rw [val_main_v46_apply,
    (show idx_main_v46 i = ix2 (⟨(i 0).val, (i 0).isLt⟩ : Fin 16384) (0 : Fin 1) from funext fun a => Fin.ext (by
      match a with
      | ⟨0, _⟩ => show (i 0).val / 1 = (i 0).val; omega
      | ⟨1, _⟩ => rfl))]
  simp only [val_main_v45_apply, val_main_v43_apply, val_main_v42_apply, val_main_cst_17_apply, val_main_v44_apply,
    val_main_cst_18_apply]
  rw [layer2_apply]
  unfold net
  show (_ + Ideal.ofBits .f32 0x3F800000#32) * Ideal.ofBits .f32 0x3F000000#32 = _
  rw [Cert.Words.one_word]

end Cert.ReferenceIdeal.RefValue

end
-- ==== Proof.Finite.lean ====
/-
  The precondition read back: every entry of `x` is a real number.

  The precondition is the conjunction, over the four arguments, of "every entry's absolute value is below `+∞`"
  (a reduction by `and` of the entrywise comparison with the word `0x7F800000`, which is `+∞`). On the extended reals
  the absolute value of `v` is `max v (-v)`, which is `+∞` at both infinities: an entry below is a real number.
-/
import proofs.«150486_j71854802862513_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

/-- The word `0x7F800000` is `+∞`. -/
theorem inf_word : Ideal.ofBits .f32 0x7F800000#32 = ⊤ := by
  simp [Ideal.ofBits, Ideal.ieee]

/-- An extended real whose absolute value is below `+∞` is a real number. -/
theorem real_of_abs_lt_top {v : EReal} (h : max v (-v) < ⊤) : v ≠ ⊤ ∧ v ≠ ⊥ := by
  constructor
  · rintro rfl; simp at h
  · rintro rfl; simp at h

/-- A one-bit word made from a Boolean is `1` exactly when the Boolean is true. -/
theorem ofBool_eq_one_iff (b : Bool) : BitVec.ofBool b = 1#1 ↔ b = true := by cases b <;> decide

/-- Under the precondition every entry of the first argument is a real number. -/
theorem x_real [Facts] (a0 : FVec Ideal S16384x1025 .f32) (a1 a2 : FVec Ideal S1025x1025 .f32) (a3 : FVec Ideal S1x1025 .f32)
    (h : fn (F := Ideal) a0 a1 a2 a3 = fun _ => 1#1) (i : S16384x1025.Idx) : a0 i ≠ ⊤ ∧ a0 i ≠ ⊥ := by
  have h0 := congrFun h ix0
  dsimp only [fn, fn_part1, andi] at h0
  obtain ⟨h1, -⟩ := IntOp.andi_eq_one.1 h0
  obtain ⟨h2, -⟩ := IntOp.andi_eq_one.1 h1
  obtain ⟨h3, -⟩ := IntOp.andi_eq_one.1 h2
  have e := Host.reduce_andi_all _ _ _ _ ix0 h3 i
  have e' : Ideal.cmp .olt (max (a0 i) (-(a0 i))) (Ideal.ofBits .f32 0x7F800000#32) = 1#1 := e
  rw [inf_word] at e'
  have e'' : BitVec.ofBool (decide (max (a0 i) (-(a0 i)) < ⊤)) = 1#1 := e'
  exact real_of_abs_lt_top (of_decide_eq_true ((ofBool_eq_one_iff _).1 e''))

end Cert.Pre_finite_inputs.Finite

end
-- ==== Proof.lean ====
/-
  A three-layer sign network (a binarized MLP), fused into one kernel, against its plain reference.

  REFERENCE. Each layer multiplies the activations by the STEPS of a weight table (`1` where a weight is at least `0`,
  `-1` below) and steps the product; the last layer has one output, sent from `{-1, 1}` to `{0, 1}` by `(· + 1) * 0.5`.
  Entry `i` of the result is `SignNet.net` on row `i` of `x`.

  KERNEL. The host steps, zero-pads (1025 → 1152 lanes, 1 → 128 outputs) and transposes the tables; one grid point
  takes 1024 rows of `x`, pads each with zeros to 1152 lanes, computes the first product as the sum of the products of
  the row and of the row's difference from itself (at the ideal instance the change of float format between them is
  the identity), steps, multiplies, steps, multiplies, steps, and writes `(· + 1) * 0.5` of all 128 output lanes; the
  host keeps lane `0`. Entry `i` of the result is `SignNet.knet` on the padded row, at lane `0`.

  WHY THEY AGREE. A padded lane meets a zero weight, so it adds `0` to every sum whatever it holds (the padded
  activation lanes hold the step of `0`, which is `1`, and still contribute nothing); and a real number's difference
  from itself is `0`, so the second product of the first layer vanishes. The second fact is where the precondition
  is used: on the extended reals `⊤ - ⊤ = ⊥`, and the claim needs every entry of `x` to be a real number
  (`SignNet.knet_eq_net`). Sums are over finite index types of the extended reals, where addition is commutative and
  associative: no order or tiling of a product matters.
-/
import proofs.«150486_j71854802862513_2_alg».proof.Defs
import proofs.«150486_j71854802862513_2_alg».proof.Proof.Gen.Kernel
import proofs.«150486_j71854802862513_2_alg».proof.Proof.Gen.Kernel.Frame
import proofs.«150486_j71854802862513_2_alg».proof.Proof.Gen.KernelIdeal
import proofs.«150486_j71854802862513_2_alg».proof.Proof.Gen.KernelIdeal.Frame
import proofs.«150486_j71854802862513_2_alg».proof.Proof.Gen.ReferenceIdeal
import proofs.«150486_j71854802862513_2_alg».proof.Proof.Gen.Pre_finite_inputs
import proofs.«150486_j71854802862513_2_alg».proof.Proof.KernelRun
import proofs.«150486_j71854802862513_2_alg».proof.Proof.RefRun
import proofs.«150486_j71854802862513_2_alg».proof.Proof.RefNet
import proofs.«150486_j71854802862513_2_alg».proof.Proof.Finite
import Idealize.ShloMosaic.Adequacy
import Idealize.ShloMosaic.Init

noncomputable section

namespace Cert.Proof

open Idealize.ShloMosaic Idealize.ShloMosaic.ValueIdx Idealize.SL.Sem Cert.SignNet

/-- The kernel's entry `i` is the reference's, when row `i` of `x` holds real numbers: the prepared tables are the
    padded transposed steps (`HostPrep`), and the padded network's lane `0` is the network (`SignNet.knet_eq_net`). -/
theorem result_eq_net (X : Cert.KernelIdeal.S16384x1025.Idx → EReal) (W0 W1 : Cert.KernelIdeal.S1025x1025.Idx → EReal)
    (W2 : Cert.KernelIdeal.S1x1025.Idx → EReal) (i : Cert.KernelIdeal.S16384.Idx)
    (hx : ∀ k : Fin 1025, X (ix2 (⟨(i 0).val, (i 0).isLt⟩ : Fin 16384) k) ≠ ⊤ ∧ X (ix2 (⟨(i 0).val, (i 0).isLt⟩ : Fin 16384) k) ≠ ⊥) :
    Cert.KernelIdeal.RunValue.result X W0 W1 W2 i
      = net (Ideal.ofBits .f32 0x3F000000#32) (fun j' k' => W0 (ix2 j' k')) (fun j' k' => W1 (ix2 j' k')) (fun j' k' => W2 (ix2 j' k'))
          (fun k' => X (ix2 (⟨(i 0).val, (i 0).isLt⟩ : Fin 16384) k')) := by
  unfold Cert.KernelIdeal.RunValue.result Cert.KernelIdeal.Blocks.rowValue
  refine (knet_congr _
    (funext fun k => funext fun j => Cert.KernelIdeal.HostPrep.prepSquare_apply W0 k j)
    (funext fun k => funext fun j => Cert.KernelIdeal.HostPrep.prepSquare_apply W1 k j)
    (funext fun k => funext fun j => Cert.KernelIdeal.HostPrep.prepLast_apply W2 k j) rfl rfl).trans ?_
  exact knet_eq_net (by decide) (by decide) _ _ _ _ _ hx

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The one rewrite of the ideal pass: widening a narrowed `f32` vector back is the identity at the ideal instance. -/
theorem preserves : Cert.preserves_Kernel_KernelIdeal :=
  IdealRules.truncf_extf.statement Cert.KernelIdeal.S1024x1152 .f32 .bf16

/-- Both programs run, and end with the same result: entry `i` is the network on row `i` of `x`, whose entries the
    precondition makes real numbers. -/
theorem algebraic : Cert.algebraic_KernelIdeal_ReferenceIdeal := by
  intro m ρ m' ρ' hpre hagree
  refine ⟨fun c => Cert.KernelIdeal.RunValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.RunValue.run m ρ, ?_⟩
  refine (θ_run Cert.ReferenceIdeal.defs _ _).mono (fun _ h c => ⟨?_, (h c).2⟩)
    (Cert.ReferenceIdeal.ValueP.run (F := Ideal) m' ρ')
  refine ((h c).1.trans (Cert.ReferenceIdeal.ReadP.val_main_v46_eq _ _ _ _)).trans ?_
  rw [(hagree c).1, (hagree c).2.1, (hagree c).2.2.1, (hagree c).2.2.2]
  funext i
  rw [Cert.ReferenceIdeal.RefValue.result_apply]
  exact (result_eq_net _ _ _ _ i fun k => Cert.Pre_finite_inputs.Finite.x_real _ _ _ _ (hpre c) _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
